-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S2x128 .f32) (main_arg12 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S2x128 .f32) (main_arg12 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S2x128 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 94
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S2x128, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000x1, .f32⟩
  | .hbm, ⟨19, _⟩ => ⟨S_, .f32⟩
  | .hbm, ⟨20, _⟩ => ⟨S50000x1, .f32⟩
  | .hbm, ⟨21, _⟩ => ⟨S800000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S128x128, .bf16⟩
  | .hbm, ⟨43, _⟩ => ⟨S128x128, .f32⟩
  | .hbm, ⟨44, _⟩ => ⟨S128x128, .bf16⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S128x128, .bf16⟩
  | .hbm, ⟨64, _⟩ => ⟨S128x128, .f32⟩
  | .hbm, ⟨65, _⟩ => ⟨S128x128, .bf16⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S128x128, .f32⟩
  | .hbm, ⟨84, _⟩ => ⟨S128x128, .bf16⟩
  | .hbm, ⟨85, _⟩ => ⟨S128x128, .f32⟩
  | .hbm, ⟨86, _⟩ => ⟨S128x128, .bf16⟩
  | .hbm, ⟨87, _⟩ => ⟨S1x128, .f32⟩
  | .hbm, ⟨88, _⟩ => ⟨S50000x128, .f32⟩
  | .hbm, ⟨89, _⟩ => ⟨S128x2, .f32⟩
  | .hbm, ⟨90, _⟩ => ⟨S50000x2, .f32⟩
  | .hbm, ⟨91, _⟩ => ⟨S1x2, .f32⟩
  | .hbm, ⟨92, _⟩ => ⟨S50000x2, .f32⟩
  | .hbm, ⟨93, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S50000x128_S128x2_S50000x2_1_0_0_1_n_n_wf : DotDims.WF S50000x128 S128x2 S50000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S2x128, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000x1, .f32⟩
  | .hbm, ⟨32, _⟩ => ⟨S_, .f32⟩
  | .hbm, ⟨33, _⟩ => ⟨S50000x1, .f32⟩
  | .hbm, ⟨34, _⟩ => ⟨S800000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S800000x1, .f32⟩
  | .hbm, ⟨67, _⟩ => ⟨S_, .f32⟩
  | .hbm, ⟨68, _⟩ => ⟨S50000x1, .f32⟩
  | .hbm, ⟨69, _⟩ => ⟨S800000x1, .i32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S_, .f32⟩
  | .hbm, ⟨101, _⟩ => ⟨S800000x1, .f32⟩
  | .hbm, ⟨102, _⟩ => ⟨S_, .f32⟩
  | .hbm, ⟨103, _⟩ => ⟨S50000x1, .f32⟩
  | .hbm, ⟨104, _⟩ => ⟨S800000x1, .i32⟩
  | .hbm, ⟨105, _⟩ => ⟨S50000x1, .f32⟩
  | .hbm, ⟨106, _⟩ => ⟨S_, .f32⟩
  | .hbm, ⟨107, _⟩ => ⟨S50000x1, .f32⟩
  | .hbm, ⟨108, _⟩ => ⟨S50000x1, .f32⟩
  | .hbm, ⟨109, _⟩ => ⟨S50000x128, .f32⟩
  | .hbm, ⟨110, _⟩ => ⟨S50000x128, .f32⟩
  | .hbm, ⟨111, _⟩ => ⟨S128x128, .f32⟩
  | .hbm, ⟨112, _⟩ => ⟨S50000x128, .f32⟩
  | .hbm, ⟨113, _⟩ => ⟨S128x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S128x2, .f32⟩
  | .hbm, ⟨120, _⟩ => ⟨S50000x2, .f32⟩
  | .hbm, ⟨121, _⟩ => ⟨S1x2, .f32⟩
  | .hbm, ⟨122, _⟩ => ⟨S50000x2, .f32⟩
  | .hbm, ⟨123, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The idealized kernel's run with its two results named: every weakly fair execution terminates, and in the final
  state the readout array and the embedding array hold what the last segment boundary's contents say, the thirteen
  arguments what they held at launch. The run is the one the frame proof makes — the seven segments of the program,
  host stretches and launches alternating, over the chain of boundary contents — with the final state read at the
  two result buffers as well as at the arguments.
-/
import proofs.«140639_j39127152066637_1_alg».proof.Proof.Gen.KernelIdeal.Frame
import Idealize.ShloMosaic.PureOps.Ideal

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, with the results at the last boundary's contents. -/
theorem run_last : θ_run defs (onTc (τ := τ) (main (F := Ideal))) ⟨m, fun _ => 0, ρ⟩ (fun r => ∀ c : Dev nD,
      r.2.mem ((c.tc : Thread nD τ).loc main_v68) = W7 m ρ c (Proc.devRef .tc main_v68)
      ∧ r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v68 (by decide)),
       h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.Sage.KRun

end
-- ==== Proof.Keep.lean ====
/-
  Two small tactics for reading the chain of boundary contents: a host stretch leaves every buffer it does not write
  as it found it, and a buffer a stretch does write holds the stretch's operations applied to what it found.
-/
import proofs.«140639_j39127152066637_1_alg».proof.Proof.Gen.KernelIdeal.Frame
import Idealize.ShloMosaic.Lib.StableHlo.Run

namespace Cert.Sage

open Idealize.ShloMosaic Idealize.ShloMosaic.StableHlo Cert.KernelIdeal.Gen

/-- Closes `after ops W b = W b` for a literal stretch `ops` that has no operation writing `b`. -/
macro "stretch_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

end Cert.Sage
-- ==== Proof.Spec.lean ====
/-
  The mathematics of one layer, index by index, over extended reals.

  A layer takes the aggregated neighbour features `A` and the node features `h` (both n × 128), two 128 × 128
  matrices `Wl`, `Wr` stored [in, out] and a bias row `b` (1 × 128), and returns at (r, c)

      Σₖ A(r,k)·Wl(k,c)  +  Σₖ h(r,k)·Wr(k,c)  +  b(0,c),

  followed, in the first two layers, by the maximum with zero. The same formula is stated for any row count `n`:
  a block of 5000 rows of the result depends only on the same 5000 rows of `A` and `h`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

/-- The affine part of a layer at (r, c): the two matrix products and the bias row. -/
def lin {n : ℕ} (A h : (⟨2, ![n, 128]⟩ : Shape).Idx → EReal) (Wl Wr : (⟨2, ![128, 128]⟩ : Shape).Idx → EReal)
    (b : (⟨2, ![1, 128]⟩ : Shape).Idx → EReal) : (⟨2, ![n, 128]⟩ : Shape).Idx → EReal := fun i =>
  (∑ k : Fin 128, A (ix2 (i 0) k) * Wl (ix2 k (i 1))) + (∑ k : Fin 128, h (ix2 (i 0) k) * Wr (ix2 k (i 1)))
    + b (ix2 (0 : Fin 1) (i 1))

/-- The rectifier: the maximum with the zero word's value, entry by entry. -/
def act {n : ℕ} (x : (⟨2, ![n, 128]⟩ : Shape).Idx → EReal) : (⟨2, ![n, 128]⟩ : Shape).Idx → EReal := fun i =>
  max (x i) (Ideal.ofBits .f32 0x00000000#32)

theorem lin_apply {n : ℕ} (A h : (⟨2, ![n, 128]⟩ : Shape).Idx → EReal) (Wl Wr : (⟨2, ![128, 128]⟩ : Shape).Idx → EReal)
    (b : (⟨2, ![1, 128]⟩ : Shape).Idx → EReal) (r : Fin n) (c : Fin 128) :
    lin A h Wl Wr b (ix2 r c) = (∑ k : Fin 128, A (ix2 r k) * Wl (ix2 k c)) + (∑ k : Fin 128, h (ix2 r k) * Wr (ix2 k c))
      + b (ix2 (0 : Fin 1) c) := rfl

/-- A layer's rows depend on the same rows of its two row-indexed operands only: if `A'`, `h'` are `A`, `h` read
    through a map of rows `ρ` (same column), the layer of `A'`, `h'` is the layer of `A`, `h` read through `ρ`. -/
theorem lin_rows {n n' : ℕ} (A h : (⟨2, ![n, 128]⟩ : Shape).Idx → EReal) (A' h' : (⟨2, ![n', 128]⟩ : Shape).Idx → EReal)
    (Wl Wr : (⟨2, ![128, 128]⟩ : Shape).Idx → EReal) (b : (⟨2, ![1, 128]⟩ : Shape).Idx → EReal)
    (ρ : Fin n' → Fin n) (hA : ∀ r k, A' (ix2 r k) = A (ix2 (ρ r) k)) (hh : ∀ r k, h' (ix2 r k) = h (ix2 (ρ r) k))
    (r : Fin n') (c : Fin 128) : lin A' h' Wl Wr b (ix2 r c) = lin A h Wl Wr b (ix2 (ρ r) c) := by
  rw [lin_apply, lin_apply]
  simp only [hA, hh]

/-- The affine map at an index `y` of a block and at an index `z` of the whole array agree as soon as the block's
    row `y 0` of each row-indexed operand is the array's row `z 0`, and the two indices have the same column. -/
theorem lin_at {n n' : ℕ} (A h : (⟨2, ![n, 128]⟩ : Shape).Idx → EReal) (A' h' : (⟨2, ![n', 128]⟩ : Shape).Idx → EReal)
    (Wl Wr : (⟨2, ![128, 128]⟩ : Shape).Idx → EReal) (b : (⟨2, ![1, 128]⟩ : Shape).Idx → EReal)
    (y : (⟨2, ![n', 128]⟩ : Shape).Idx) (z : (⟨2, ![n, 128]⟩ : Shape).Idx)
    (hA : ∀ k : Fin 128, A' (ix2 (y 0) k) = A (ix2 (z 0) k)) (hh : ∀ k : Fin 128, h' (ix2 (y 0) k) = h (ix2 (z 0) k))
    (hc : (z 1).val = (y 1).val) : lin A' h' Wl Wr b y = lin A h Wl Wr b z := by
  have e : (z 1 : Fin 128) = y 1 := Fin.ext hc
  unfold lin
  simp only [hA, hh, e]

/-- The same after the rectifier. -/
theorem act_lin_at {n n' : ℕ} (A h : (⟨2, ![n, 128]⟩ : Shape).Idx → EReal) (A' h' : (⟨2, ![n', 128]⟩ : Shape).Idx → EReal)
    (Wl Wr : (⟨2, ![128, 128]⟩ : Shape).Idx → EReal) (b : (⟨2, ![1, 128]⟩ : Shape).Idx → EReal)
    (y : (⟨2, ![n', 128]⟩ : Shape).Idx) (z : (⟨2, ![n, 128]⟩ : Shape).Idx)
    (hA : ∀ k : Fin 128, A' (ix2 (y 0) k) = A (ix2 (z 0) k)) (hh : ∀ k : Fin 128, h' (ix2 (y 0) k) = h (ix2 (z 0) k))
    (hc : (z 1).val = (y 1).val) : act (lin A' h' Wl Wr b) y = act (lin A h Wl Wr b) z :=
  congrArg (fun v => max v (Ideal.ofBits .f32 0x00000000#32)) (lin_at A h A' h' Wl Wr b y z hA hh hc)

end Cert.Sage

end
-- ==== Proof.Chain.lean ====
/-
  The whole network as one function of the argument arrays.

  A node's aggregated feature is the sum of the features of its in-neighbours (a gather along the edges' sources, then
  a scatter-add at their destinations) divided by its in-degree, the degree floored at one. A layer is the affine
  map of `Spec.lean` applied to the aggregate and to the features themselves, with the weight matrices transposed
  to [in, out] and the bias as a row; the first two layers end in the rectifier. The readout is one more affine map.
  The gather, the scatter-add and the division are carried as they are printed: both programs apply the very same
  operations there, so nothing below ever opens them.
-/
import proofs.«140639_j39127152066637_1_alg».proof.Proof.Gen.KernelIdeal
import proofs.«140639_j39127152066637_1_alg».proof.Proof.Spec

noncomputable section

namespace Cert.Sage

open Idealize.ShloMosaic Idealize.ShloMosaic.ValueIdx Cert.KernelIdeal Cert.KernelIdeal.Facts₀ Cert.KernelIdeal.Facts

abbrev EdgeIx := IVec S2x800000 32
abbrev EdgeVec := IVec S800000 32
abbrev Feat := FVec Ideal S50000x128 .f32
abbrev Deg := FVec Ideal S50000x1 .f32
abbrev Mat := FVec Ideal S128x128 .f32
abbrev Bias := FVec Ideal S128 .f32

/-- Row 0 of the edge list: the edges' source nodes. -/
def srcOf (ei : EdgeIx) : EdgeVec :=
  shapeCast _ (extractStridedSlice S1x800000 ![0, 0] ei slices_S2x800000_S1x800000_0_0) shapeCasts_S1x800000_S800000

/-- Row 1 of the edge list: the edges' destination nodes. -/
def dstOf (ei : EdgeIx) : EdgeVec :=
  shapeCast _ (extractStridedSlice S1x800000 ![1, 0] ei slices_S2x800000_S1x800000_1_0) shapeCasts_S1x800000_S800000

/-- In-degrees: ones scattered-and-added at the destinations, floored at one. -/
def degOf (dst : EdgeVec) : Deg :=
  maximumf (Host.scatterAdd scatter_S50000x1_S800000x1_S800000x1_1_0_0_1
      (broadcastInDim S50000x1 ![] bcast_S_S50000x1 (constant (F := Ideal) S_ .f32 0x00000000#32))
      (broadcastInDim S800000x1 ![0] bcast_S800000_S800000x1_0 dst)
      (broadcastInDim S800000x1 ![] bcast_S_S800000x1 (constant (F := Ideal) S_ .f32 0x3F800000#32)))
    (broadcastInDim S50000x1 ![] bcast_S_S50000x1 (constant (F := Ideal) S_ .f32 0x3F800000#32))

/-- The mean over in-neighbours of the features `h`, from the sources, the destinations and the degrees. -/
def aggrOf (src dst : EdgeVec) (deg : Deg) (h : Feat) : Feat :=
  Host.divf (F := Ideal) (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 deg)

/-- The mean aggregation from the edge list itself. -/
def aggr (ei : EdgeIx) (h : Feat) : Feat := aggrOf (srcOf ei) (dstOf ei) (degOf (dstOf ei)) h

/-- A weight matrix stored [out, in], transposed to [in, out] (the change of float format is the identity here). -/
def wT (W : Mat) : FVec Ideal S128x128 .bf16 :=
  truncf .bf16 (transpose S128x128 [1, 0] W transposes_S128x128_S128x128_1_0) bitsLt_bf16_f32

/-- A bias vector as a row. -/
def brow (b : Bias) : FVec Ideal S1x128 .f32 := shapeCast _ b shapeCasts_S128_S1x128

/-- A layer without the rectifier. -/
def layerLin (ei : EdgeIx) (h : Feat) (Wl Wr : Mat) (b : Bias) : Feat := lin (aggr ei h) h (wT Wl) (wT Wr) (brow b)

/-- A layer with the rectifier. -/
def layerAct (ei : EdgeIx) (h : Feat) (Wl Wr : Mat) (b : Bias) : Feat := act (layerLin ei h Wl Wr b)

/-- The readout: features times the transposed 2 × 128 matrix, plus the bias. -/
def readout (h : Feat) (Wo : FVec Ideal S2x128 .f32) (bo : FVec Ideal S2 .f32) : FVec Ideal S50000x2 .f32 :=
  addf (Host.dotGeneral (F := Ideal) dot_S50000x128_S128x2_S50000x2_1_0_0_1_n_n none h (transpose S128x2 [1, 0] Wo transposes_S2x128_S128x2_1_0))
    (broadcastInDim S50000x2 ![0, 1] bcast_S1x2_S50000x2_0_1 (broadcastInDim S1x2 ![1] bcast_S2_S1x2_1 bo))

/-- The embedding the network returns: three layers, the last without the rectifier. -/
def embed (x : Feat) (ei : EdgeIx) (Wl1 Wr1 : Mat) (b1 : Bias) (Wl2 Wr2 : Mat) (b2 : Bias) (Wl3 Wr3 : Mat) (b3 : Bias) : Feat :=
  layerLin ei (layerAct ei (layerAct ei x Wl1 Wr1 b1) Wl2 Wr2 b2) Wl3 Wr3 b3

end Cert.Sage

end
-- ==== Proof.Entry0.lean ====
/-
  The contents when the first launch is entered, as functions of the arguments: the aggregate of the input
  features, the two transposed weight matrices, the bias row — and the three arrays the later stretches read again
  (the edges' sources, their destinations, the floored in-degrees). Every argument is still what it was at launch.
-/
import proofs.«140639_j39127152066637_1_alg».proof.Proof.Keep
import proofs.«140639_j39127152066637_1_alg».proof.Proof.Chain

set_option maxRecDepth 16384

noncomputable section

namespace Cert.Sage.Entry0

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

theorem src (c : Dev nD) : V1 m ρ c main_v1 = srcOf (m ((c : Thread nD τ).loc main_arg1)) := by
  show StableHlo.after hostOps0 (W0 m ρ c) (Proc.devRef .tc main_v1) = _
  dsimp only [hostOps0]; after_results; rfl

theorem dst (c : Dev nD) : V1 m ρ c main_v3 = dstOf (m ((c : Thread nD τ).loc main_arg1)) := by
  show StableHlo.after hostOps0 (W0 m ρ c) (Proc.devRef .tc main_v3) = _
  dsimp only [hostOps0]; after_results; rfl

set_option maxHeartbeats 1000000 in
theorem deg (c : Dev nD) : V1 m ρ c main_v9 = degOf (dstOf (m ((c : Thread nD τ).loc main_arg1))) := by
  show StableHlo.after hostOps0 (W0 m ρ c) (Proc.devRef .tc main_v9) = _
  dsimp only [hostOps0]; after_results_simp; rfl

set_option maxHeartbeats 2000000 in
theorem agg (c : Dev nD) : V1 m ρ c main_v21 = aggr (m ((c : Thread nD τ).loc main_arg1)) (m ((c : Thread nD τ).loc main_arg0)) := by
  show StableHlo.after hostOps0 (W0 m ρ c) (Proc.devRef .tc main_v21) = _
  dsimp only [hostOps0]; after_results_simp; rfl

theorem wl (c : Dev nD) : V1 m ρ c main_v23 = wT (m ((c : Thread nD τ).loc main_arg2)) := by
  show StableHlo.after hostOps0 (W0 m ρ c) (Proc.devRef .tc main_v23) = _
  dsimp only [hostOps0]; after_results; rfl

theorem wr (c : Dev nD) : V1 m ρ c main_v25 = wT (m ((c : Thread nD τ).loc main_arg3)) := by
  show StableHlo.after hostOps0 (W0 m ρ c) (Proc.devRef .tc main_v25) = _
  dsimp only [hostOps0]; after_results; rfl

theorem bias (c : Dev nD) : V1 m ρ c main_v26 = brow (m ((c : Thread nD τ).loc main_arg4)) := by
  show StableHlo.after hostOps0 (W0 m ρ c) (Proc.devRef .tc main_v26) = _
  dsimp only [hostOps0]; after_results; rfl

theorem arg0 (c : Dev nD) : V1 m ρ c main_arg0 = (m ((c : Thread nD τ).loc main_arg0)) := by
  show StableHlo.after hostOps0 (W0 m ρ c) (Proc.devRef .tc main_arg0) = W0 m ρ c (Proc.devRef .tc main_arg0)
  stretch_keeps

theorem arg5 (c : Dev nD) : V1 m ρ c main_arg5 = (m ((c : Thread nD τ).loc main_arg5)) := by
  show StableHlo.after hostOps0 (W0 m ρ c) (Proc.devRef .tc main_arg5) = W0 m ρ c (Proc.devRef .tc main_arg5)
  stretch_keeps

theorem arg6 (c : Dev nD) : V1 m ρ c main_arg6 = (m ((c : Thread nD τ).loc main_arg6)) := by
  show StableHlo.after hostOps0 (W0 m ρ c) (Proc.devRef .tc main_arg6) = W0 m ρ c (Proc.devRef .tc main_arg6)
  stretch_keeps

theorem arg7 (c : Dev nD) : V1 m ρ c main_arg7 = (m ((c : Thread nD τ).loc main_arg7)) := by
  show StableHlo.after hostOps0 (W0 m ρ c) (Proc.devRef .tc main_arg7) = W0 m ρ c (Proc.devRef .tc main_arg7)
  stretch_keeps

theorem arg8 (c : Dev nD) : V1 m ρ c main_arg8 = (m ((c : Thread nD τ).loc main_arg8)) := by
  show StableHlo.after hostOps0 (W0 m ρ c) (Proc.devRef .tc main_arg8) = W0 m ρ c (Proc.devRef .tc main_arg8)
  stretch_keeps

theorem arg9 (c : Dev nD) : V1 m ρ c main_arg9 = (m ((c : Thread nD τ).loc main_arg9)) := by
  show StableHlo.after hostOps0 (W0 m ρ c) (Proc.devRef .tc main_arg9) = W0 m ρ c (Proc.devRef .tc main_arg9)
  stretch_keeps

theorem arg10 (c : Dev nD) : V1 m ρ c main_arg10 = (m ((c : Thread nD τ).loc main_arg10)) := by
  show StableHlo.after hostOps0 (W0 m ρ c) (Proc.devRef .tc main_arg10) = W0 m ρ c (Proc.devRef .tc main_arg10)
  stretch_keeps

theorem arg11 (c : Dev nD) : V1 m ρ c main_arg11 = (m ((c : Thread nD τ).loc main_arg11)) := by
  show StableHlo.after hostOps0 (W0 m ρ c) (Proc.devRef .tc main_arg11) = W0 m ρ c (Proc.devRef .tc main_arg11)
  stretch_keeps

theorem arg12 (c : Dev nD) : V1 m ρ c main_arg12 = (m ((c : Thread nD τ).loc main_arg12)) := by
  show StableHlo.after hostOps0 (W0 m ρ c) (Proc.devRef .tc main_arg12) = W0 m ρ c (Proc.devRef .tc main_arg12)
  stretch_keeps

/-- The first layer's features are the input features. -/
theorem feat (c : Dev nD) : V1 m ρ c main_arg0 = (m ((c : Thread nD τ).loc main_arg0)) := arg0 m ρ c

end Cert.Sage.Entry0

end
-- ==== Proof.LibDotSum.lean ====
/-
  A contraction over one axis, re-indexed: the sum over a dot's contraction index type of the operands' products
  is the sum over `Fin K` once each operand's index at the `k`-th contraction position is known.
-/
import Idealize.ShloMosaic.PureOps.Ideal.Laws
import Idealize.ShloMosaic.Lib.ValueIdx

noncomputable section

namespace Cert.Gnn

open Idealize.ShloMosaic Idealize.ShloMosaic.ValueIdx

/-- The sum over a one-axis contraction index of `lhs · rhs` is the sum over `Fin K` of the operands at the indices
    `L k`, `R k` the dot's index maps take at the `k`-th contraction position. -/
theorem dot_sum {sl sr so : Shape} (d : DotDims sl sr so) (K : Nat) (hr : d.contr.rank = 1)
    (hs : d.contr.size ⟨0, by omega⟩ = K) (lhs : sl.Idx → EReal) (rhs : sr.Idx → EReal) (j : so.Idx)
    (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    ∑ q : d.contr.Idx, lhs (d.lhsIdx j q) * rhs (d.rhsIdx j q) = ∑ k : Fin K, lhs (L k) * rhs (R k) := by
  rw [← Equiv.sum_comp (contrEquiv1 d K hr hs).symm]
  exact Finset.sum_congr rfl fun k _ => by rw [hL k, hR k]

end Cert.Gnn

end
-- ==== Proof.Payload.lean ====
/-
  What the kernel body stores, index by index: the block of 5000 rows it writes is the layer's affine map (and, in
  the first two layers, the rectifier) of the two blocks of 5000 rows it loaded, the two whole weight matrices and the
  bias row. The matrix unit's product into a zero accumulator is the plain sum over the 128 contracted positions;
  rounding the operands to bf16 is the identity on extended reals; a cast between equal shapes is the identity.
-/
import proofs.«140639_j39127152066637_1_alg».proof.Proof.Gen.KernelIdeal.Skeleton
import proofs.«140639_j39127152066637_1_alg».proof.Proof.Spec
import proofs.«140639_j39127152066637_1_alg».proof.Proof.LibDotSum

noncomputable section

namespace Cert.Sage.Pay

open Idealize.ShloMosaic Idealize.ShloMosaic.ValueIdx Cert.KernelIdeal Cert.KernelIdeal.Gen Cert.Sage

/-- The block product's dimension record: [5000,128] × [128,128], contracting the left operand's columns with the
    right operand's rows. -/
abbrev D := dot_S5000x128_S128x128_S5000x128_1_0_0_1_n_n

theorem lhs_row (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_col (i : S5000x128.Idx) (q : D.contr.Idx) : (D.lhsIdx i q 1).val = (q ⟨0, by decide⟩).val :=
  D.lhsIdx_val_of_single rfl i q
theorem rhs_row (i : S5000x128.Idx) (q : D.contr.Idx) : (D.rhsIdx i q 0).val = (q ⟨0, by decide⟩).val :=
  D.rhsIdx_val_of_single rfl i q
theorem rhs_col (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The matrix unit's product into the zero accumulator, at (p, q): the sum over k of X(p,k)·M(k,q). -/
theorem blockDot (X : FVec Ideal S5000x128 .bf16) (M : FVec Ideal S128x128 .bf16) (p : Fin 5000) (q : Fin 128) :
    matmul D none X M (constant S5000x128 .f32 0x00000000#32) (ix2 p q) = ∑ k : Fin 128, X (ix2 p k) * M (ix2 k q) := by
  refine (Ideal.matmul_constant_zero_apply D none X M (ix2 p q)).trans ?_
  refine Cert.Gnn.dot_sum D 128 rfl rfl X M (ix2 p q) (fun k => ix2 p k) (fun k => ix2 k q) (fun k => ?_) (fun k => ?_)
  · have hk := contrEquiv1_symm_val D 128 rfl rfl k
    exact funext fun a => Fin.ext (by
      match a with
      | ⟨0, _⟩ => exact lhs_row _ _
      | ⟨1, _⟩ => exact (lhs_col _ _).trans hk)
  · have hk := contrEquiv1_symm_val D 128 rfl rfl k
    exact funext fun a => Fin.ext (by
      match a with
      | ⟨0, _⟩ => exact (rhs_row _ _).trans hk
      | ⟨1, _⟩ => exact rhs_col _ _)

/-- The affine part as the body computes it, at (p, q). -/
theorem affine_apply (x0 x1 : FVec Ideal S5000x128 .f32) (x2 x3 : FVec Ideal S128x128 .bf16) (x4 : FVec Ideal S1x128 .f32)
    (p : Fin 5000) (q : Fin 128) :
    addf (addf (matmul D none (truncf .bf16 x0 bitsLt_bf16_f32) x2 (constant S5000x128 .f32 0x00000000#32))
        (matmul D none (truncf .bf16 x1 bitsLt_bf16_f32) x3 (constant S5000x128 .f32 0x00000000#32)))
      (broadcastTo S5000x128 x4 broadcasts_S1x128_S5000x128) (ix2 p q) = lin x0 x1 x2 x3 x4 (ix2 p q) := by
  rw [lin_apply, addf_apply, addf_apply, blockDot, blockDot, broadcastTo_1b_ab_apply]
  rfl

/-- Layer 1's stored block: the rectified affine map of the loaded blocks. -/
theorem pay0 (x0 x1 : Vec Ideal S5000x128 .f32) (x2 x3 : Vec Ideal S128x128 .bf16) (x4 : Vec Ideal S1x128 .f32) :
    k0_pay1 x0 x1 x2 x3 x4 = act (lin x0 x1 x2 x3 x4) := by
  funext j
  obtain ⟨p, q, rfl⟩ : ∃ (p : Fin 5000) (q : Fin 128), j = ix2 p q := ⟨j 0, j 1, eq_ix2 j⟩
  unfold k0_pay1 act
  simp only [shapeCast_self]
  exact congrArg (fun z => max z (Ideal.ofBits .f32 0x00000000#32)) (affine_apply x0 x1 x2 x3 x4 p q)

/-- Layer 2's stored block: the rectified affine map of the loaded blocks. -/
theorem pay1 (x0 x1 : Vec Ideal S5000x128 .f32) (x2 x3 : Vec Ideal S128x128 .bf16) (x4 : Vec Ideal S1x128 .f32) :
    k1_pay1 x0 x1 x2 x3 x4 = act (lin x0 x1 x2 x3 x4) := by
  funext j
  obtain ⟨p, q, rfl⟩ : ∃ (p : Fin 5000) (q : Fin 128), j = ix2 p q := ⟨j 0, j 1, eq_ix2 j⟩
  unfold k1_pay1 act
  simp only [shapeCast_self]
  exact congrArg (fun z => max z (Ideal.ofBits .f32 0x00000000#32)) (affine_apply x0 x1 x2 x3 x4 p q)

/-- Layer 3's stored block: the affine map of the loaded blocks, no rectifier. -/
theorem pay2 (x0 x1 : Vec Ideal S5000x128 .f32) (x2 x3 : Vec Ideal S128x128 .bf16) (x4 : Vec Ideal S1x128 .f32) :
    k2_pay1 x0 x1 x2 x3 x4 = lin x0 x1 x2 x3 x4 := by
  funext j
  obtain ⟨p, q, rfl⟩ : ∃ (p : Fin 5000) (q : Fin 128), j = ix2 p q := ⟨j 0, j 1, eq_ix2 j⟩
  unfold k2_pay1
  simp only [shapeCast_self]
  exact affine_apply x0 x1 x2 x3 x4 p q

end Cert.Sage.Pay

end
-- ==== Proof.Launch0.lean ====
/-
  Layer 1's kernel launch, read as one array: ten grid points, point t writing rows 5000·t … 5000·t + 4999 of the
  result from the same rows of the two row-indexed operands and the whole of the weights and the bias. Each block a
  point writes back is therefore a block of ONE function of the operand arrays — the layer's map of `Spec.lean` —
  and the ten blocks tile the 50000 rows, so the result array after the launch is that function.
-/
import proofs.«140639_j39127152066637_1_alg».proof.Proof.Gen.KernelIdeal.Frame
import proofs.«140639_j39127152066637_1_alg».proof.Proof.Payload
import Idealize.ShloMosaic.Lib.Pipeline.Value

set_option maxRecDepth 16384

noncomputable section

namespace Cert.Sage.Launch0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zero_off : (![0, 0] : Fin 2 → Nat) = fun _ => 0 := funext fun a => by fin_cases a <;> rfl

/-- The printed block-index maps over the ten points: the row-indexed windows move with the point, the weights and
    the bias stay at block (0, 0), and the output's block row is the point's number. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The left weight window's one block is the whole matrix. -/
theorem wl_block (c : Dev nD) (t : Fin cfg0.N) : iblk0 V c 2 t = V c main_v23 := by
  obtain ⟨-, -, -, -, e0, e1, -⟩ := index_facts t
  funext y
  show V c main_v23 (((cfg0.win 2).blk t).view.emb y) = V c main_v23 y
  refine congrArg (V c main_v23) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The right weight window's one block is the whole matrix. -/
theorem wr_block (c : Dev nD) (t : Fin cfg0.N) : iblk0 V c 3 t = V c main_v25 := by
  obtain ⟨-, -, -, -, -, -, e0, e1, -⟩ := index_facts t
  funext y
  show V c main_v25 (((cfg0.win 3).blk t).view.emb y) = V c main_v25 y
  refine congrArg (V c main_v25) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's one block is the whole row. -/
theorem b_block (c : Dev nD) (t : Fin cfg0.N) : iblk0 V c 4 t = V c main_v26 := by
  obtain ⟨-, -, -, -, -, -, -, -, e0, e1, -⟩ := index_facts t
  funext y
  show V c main_v26 (((cfg0.win 4).blk t).view.emb y) = V c main_v26 y
  refine congrArg (V c main_v26) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Row `r` of the aggregate's block at point `t` is row 5000·t + r of the aggregate, which is the row the output's
    block puts its own row `r` at. -/
theorem agg_row (c : Dev nD) (t : Fin cfg0.N) (y : S5000x128.Idx) (k : Fin 128) :
    iblk0 V c 0 t (ix2 (y 0) k) = V c main_v21 (ix2 ((((cfg0.win 5).blk t).view.emb y) 0) k) := by
  obtain ⟨e0, e1, -, -, -, -, -, -, -, -, e10, e11⟩ := index_facts t
  show V c main_v21 (((cfg0.win 0).blk t).view.emb (ix2 (y 0) k)) = V c main_v21 (ix2 ((((cfg0.win 5).blk t).view.emb y) 0) k)
  refine congrArg (V c main_v21) (funext fun a => Fin.ext ?_)
  match a with
  | ⟨0, _⟩ => show win0_0.index t (0 : Fin 2) * 5000 + 1 * (y 0).val = win0_5.index t (0 : Fin 2) * 5000 + 1 * (y 0).val; omega
  | ⟨1, _⟩ => show win0_0.index t (1 : Fin 2) * 128 + 1 * k.val = k.val; omega

/-- The same for the features' block. -/
theorem feat_row (c : Dev nD) (t : Fin cfg0.N) (y : S5000x128.Idx) (k : Fin 128) :
    iblk0 V c 1 t (ix2 (y 0) k) = V c main_arg0 (ix2 ((((cfg0.win 5).blk t).view.emb y) 0) k) := by
  obtain ⟨-, -, e0, e1, -, -, -, -, -, -, e10, e11⟩ := index_facts t
  show V c main_arg0 (((cfg0.win 1).blk t).view.emb (ix2 (y 0) k)) = V c main_arg0 (ix2 ((((cfg0.win 5).blk t).view.emb y) 0) k)
  refine congrArg (V c main_arg0) (funext fun a => Fin.ext ?_)
  match a with
  | ⟨0, _⟩ => show win0_1.index t (0 : Fin 2) * 5000 + 1 * (y 0).val = win0_5.index t (0 : Fin 2) * 5000 + 1 * (y 0).val; omega
  | ⟨1, _⟩ => show win0_1.index t (1 : Fin 2) * 128 + 1 * k.val = k.val; omega

/-- The output block's column is the index's own column. -/
theorem out_col (t : Fin cfg0.N) (y : S5000x128.Idx) : ((((cfg0.win 5).blk t).view.emb y) 1).val = (y 1).val := by
  obtain ⟨-, -, -, -, -, -, -, -, -, -, e10, e11⟩ := index_facts t
  show win0_5.index t (1 : Fin 2) * 128 + 1 * (y 1).val = (y 1).val
  omega

/-- What point `t` writes back is block `t` of the layer's map of the operand arrays as the launch finds them. -/
theorem flushed_eq (c : Dev nD) (t : Fin cfg0.N) :
    (dat0 V c).flushed 5 t = ((cfg0.win 5).blk t).view.read (Elt Ideal)
      (act (lin (V c main_v21) (V c main_arg0) (V c main_v23) (V c main_v25) (V c main_v26))) := by
  show (cfg0.win 5).cut (grid0.coords t) ((dat0 V c).after 5 t) = _
  rw [after0_5]
  unfold out0_5
  rw [View.canon_unit_zero zero_off]
  simp only [View.ld_unit_zero (S := S5000x128) zero_off, View.ld_unit_zero (S := S128x128) zero_off,
    View.ld_unit_zero (S := S1x128) zero_off]
  rw [Pay.pay0, wl_block V c t, wr_block V c t, b_block V c t]
  funext y
  exact act_lin_at (V c main_v21) (V c main_arg0) (iblk0 V c 0 t) (iblk0 V c 1 t) (V c main_v23) (V c main_v25) (V c main_v26) y
    (((cfg0.win 5).blk t).view.emb y) (agg_row V c t y) (feat_row V c t y) (out_col t y)

/-- An index of the result array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- Every row lies in the block of the point numbered row / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨-, -, -, -, -, -, -, -, -, -, e10, e11⟩ := index_facts t
  have ht : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the launch is the layer's map of the operand arrays as the launch finds them. -/
theorem final (c : Dev nD) :
    (dat0 V c).arrAt 5 cfg0.N = (act (lin (V c main_v21) (V c main_arg0) (V c main_v23) (V c main_v25) (V c main_v26))) :=
  (dat0 V c).arrAt_eq_of_cover 5 _ (fun t _ => flushed_eq V c t) cover

end Cert.Sage.Launch0

end
-- ==== Proof.Layer1.lean ====
/-
  Layer 1: the array launch 1 leaves is the layer's map of what the launch found, and what it found is known
  from the stretch before it; so the layer's output is the network's layer 1 of the arguments. The launch touches
  no buffer but its six arrays: the edge arrays and the later layers' parameters are what they were before it.
-/
import proofs.«140639_j39127152066637_1_alg».proof.Proof.Entry0
import proofs.«140639_j39127152066637_1_alg».proof.Proof.Launch0

set_option maxRecDepth 16384

noncomputable section

namespace Cert.Sage.Layer1

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

/-- The layer's output array after the launch. -/
theorem out (c : Dev nD) : W2 m ρ c (Proc.devRef .tc main_v27) = (layerAct (m ((c : Thread nD τ).loc main_arg1)) (m ((c : Thread nD τ).loc main_arg0)) (m ((c : Thread nD τ).loc main_arg2)) (m ((c : Thread nD τ).loc main_arg3)) (m ((c : Thread nD τ).loc main_arg4))) := by
  refine (W2_arr m ρ c 5).trans ((Launch0.final (V1 m ρ) c).trans ?_)
  rw [Entry0.agg m ρ c, Entry0.feat m ρ c, Entry0.wl m ρ c, Entry0.wr m ρ c, Entry0.bias m ρ c]
  rfl

theorem src (c : Dev nD) : W2 m ρ c (Proc.devRef .tc main_v1) = srcOf (m ((c : Thread nD τ).loc main_arg1)) :=
  (W2_of_ne m ρ c main_v1 (by decide)).trans (Entry0.src m ρ c)
theorem dst (c : Dev nD) : W2 m ρ c (Proc.devRef .tc main_v3) = dstOf (m ((c : Thread nD τ).loc main_arg1)) :=
  (W2_of_ne m ρ c main_v3 (by decide)).trans (Entry0.dst m ρ c)
theorem deg (c : Dev nD) : W2 m ρ c (Proc.devRef .tc main_v9) = degOf (dstOf (m ((c : Thread nD τ).loc main_arg1))) :=
  (W2_of_ne m ρ c main_v9 (by decide)).trans (Entry0.deg m ρ c)
theorem arg5 (c : Dev nD) : W2 m ρ c (Proc.devRef .tc main_arg5) = (m ((c : Thread nD τ).loc main_arg5)) :=
  (W2_of_ne m ρ c main_arg5 (by decide)).trans (Entry0.arg5 m ρ c)
theorem arg6 (c : Dev nD) : W2 m ρ c (Proc.devRef .tc main_arg6) = (m ((c : Thread nD τ).loc main_arg6)) :=
  (W2_of_ne m ρ c main_arg6 (by decide)).trans (Entry0.arg6 m ρ c)
theorem arg7 (c : Dev nD) : W2 m ρ c (Proc.devRef .tc main_arg7) = (m ((c : Thread nD τ).loc main_arg7)) :=
  (W2_of_ne m ρ c main_arg7 (by decide)).trans (Entry0.arg7 m ρ c)
theorem arg8 (c : Dev nD) : W2 m ρ c (Proc.devRef .tc main_arg8) = (m ((c : Thread nD τ).loc main_arg8)) :=
  (W2_of_ne m ρ c main_arg8 (by decide)).trans (Entry0.arg8 m ρ c)
theorem arg9 (c : Dev nD) : W2 m ρ c (Proc.devRef .tc main_arg9) = (m ((c : Thread nD τ).loc main_arg9)) :=
  (W2_of_ne m ρ c main_arg9 (by decide)).trans (Entry0.arg9 m ρ c)
theorem arg10 (c : Dev nD) : W2 m ρ c (Proc.devRef .tc main_arg10) = (m ((c : Thread nD τ).loc main_arg10)) :=
  (W2_of_ne m ρ c main_arg10 (by decide)).trans (Entry0.arg10 m ρ c)
theorem arg11 (c : Dev nD) : W2 m ρ c (Proc.devRef .tc main_arg11) = (m ((c : Thread nD τ).loc main_arg11)) :=
  (W2_of_ne m ρ c main_arg11 (by decide)).trans (Entry0.arg11 m ρ c)
theorem arg12 (c : Dev nD) : W2 m ρ c (Proc.devRef .tc main_arg12) = (m ((c : Thread nD τ).loc main_arg12)) :=
  (W2_of_ne m ρ c main_arg12 (by decide)).trans (Entry0.arg12 m ρ c)

end Cert.Sage.Layer1

end
-- ==== Proof.Entry1.lean ====
/-
  The contents when launch 1 is entered: the aggregate of the previous layer's output (from the edge arrays and
  the degrees computed once, before the first launch), that output itself, this layer's transposed weights and
  bias row. The stretch writes none of the edge arrays and none of the remaining parameters. What the stretch does
  is first read off over ANY contents `W` it may start from, then applied to the contents the previous launch left.
-/
import proofs.«140639_j39127152066637_1_alg».proof.Proof.Layer1

set_option maxRecDepth 16384

noncomputable section

namespace Cert.Sage.Entry1

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

section Stretch
variable (W : Valuation τ sig (Elt Ideal))

set_option maxHeartbeats 1000000 in
theorem read_agg : StableHlo.after hostOps1 W (Proc.devRef .tc main_v39) = aggrOf (W (Proc.devRef .tc main_v1)) (W (Proc.devRef .tc main_v3)) (W (Proc.devRef .tc main_v9)) (W (Proc.devRef .tc main_v27)) := by
  dsimp only [hostOps1]; after_results_simp; rfl

theorem read_wl : StableHlo.after hostOps1 W (Proc.devRef .tc main_v41) = wT (W (Proc.devRef .tc main_arg5)) := by
  dsimp only [hostOps1]; after_results_simp; rfl

theorem read_wr : StableHlo.after hostOps1 W (Proc.devRef .tc main_v43) = wT (W (Proc.devRef .tc main_arg6)) := by
  dsimp only [hostOps1]; after_results_simp; rfl

theorem read_bias : StableHlo.after hostOps1 W (Proc.devRef .tc main_v44) = brow (W (Proc.devRef .tc main_arg7)) := by
  dsimp only [hostOps1]; after_results_simp; rfl

theorem keep_main_v27 : StableHlo.after hostOps1 W (Proc.devRef .tc main_v27) = W (Proc.devRef .tc main_v27) := by stretch_keeps
theorem keep_main_v1 : StableHlo.after hostOps1 W (Proc.devRef .tc main_v1) = W (Proc.devRef .tc main_v1) := by stretch_keeps
theorem keep_main_v3 : StableHlo.after hostOps1 W (Proc.devRef .tc main_v3) = W (Proc.devRef .tc main_v3) := by stretch_keeps
theorem keep_main_v9 : StableHlo.after hostOps1 W (Proc.devRef .tc main_v9) = W (Proc.devRef .tc main_v9) := by stretch_keeps
theorem keep_main_arg8 : StableHlo.after hostOps1 W (Proc.devRef .tc main_arg8) = W (Proc.devRef .tc main_arg8) := by stretch_keeps
theorem keep_main_arg9 : StableHlo.after hostOps1 W (Proc.devRef .tc main_arg9) = W (Proc.devRef .tc main_arg9) := by stretch_keeps
theorem keep_main_arg10 : StableHlo.after hostOps1 W (Proc.devRef .tc main_arg10) = W (Proc.devRef .tc main_arg10) := by stretch_keeps
theorem keep_main_arg11 : StableHlo.after hostOps1 W (Proc.devRef .tc main_arg11) = W (Proc.devRef .tc main_arg11) := by stretch_keeps
theorem keep_main_arg12 : StableHlo.after hostOps1 W (Proc.devRef .tc main_arg12) = W (Proc.devRef .tc main_arg12) := by stretch_keeps

end Stretch

theorem agg (c : Dev nD) : V3 m ρ c main_v39 = aggr (m ((c : Thread nD τ).loc main_arg1)) (layerAct (m ((c : Thread nD τ).loc main_arg1)) (m ((c : Thread nD τ).loc main_arg0)) (m ((c : Thread nD τ).loc main_arg2)) (m ((c : Thread nD τ).loc main_arg3)) (m ((c : Thread nD τ).loc main_arg4))) := by
  refine (read_agg (W2 m ρ c)).trans ?_
  rw [Layer1.src m ρ c, Layer1.dst m ρ c, Layer1.deg m ρ c, Layer1.out m ρ c]
  rfl

theorem feat (c : Dev nD) : V3 m ρ c main_v27 = (layerAct (m ((c : Thread nD τ).loc main_arg1)) (m ((c : Thread nD τ).loc main_arg0)) (m ((c : Thread nD τ).loc main_arg2)) (m ((c : Thread nD τ).loc main_arg3)) (m ((c : Thread nD τ).loc main_arg4))) :=
  (keep_main_v27 (W2 m ρ c)).trans (Layer1.out m ρ c)

theorem wl (c : Dev nD) : V3 m ρ c main_v41 = wT (m ((c : Thread nD τ).loc main_arg5)) := by
  refine (read_wl (W2 m ρ c)).trans ?_
  rw [Layer1.arg5 m ρ c]

theorem wr (c : Dev nD) : V3 m ρ c main_v43 = wT (m ((c : Thread nD τ).loc main_arg6)) := by
  refine (read_wr (W2 m ρ c)).trans ?_
  rw [Layer1.arg6 m ρ c]

theorem bias (c : Dev nD) : V3 m ρ c main_v44 = brow (m ((c : Thread nD τ).loc main_arg7)) := by
  refine (read_bias (W2 m ρ c)).trans ?_
  rw [Layer1.arg7 m ρ c]

theorem src (c : Dev nD) : V3 m ρ c main_v1 = srcOf (m ((c : Thread nD τ).loc main_arg1)) :=
  (keep_main_v1 (W2 m ρ c)).trans (Layer1.src m ρ c)
theorem dst (c : Dev nD) : V3 m ρ c main_v3 = dstOf (m ((c : Thread nD τ).loc main_arg1)) :=
  (keep_main_v3 (W2 m ρ c)).trans (Layer1.dst m ρ c)
theorem deg (c : Dev nD) : V3 m ρ c main_v9 = degOf (dstOf (m ((c : Thread nD τ).loc main_arg1))) :=
  (keep_main_v9 (W2 m ρ c)).trans (Layer1.deg m ρ c)
theorem arg8 (c : Dev nD) : V3 m ρ c main_arg8 = (m ((c : Thread nD τ).loc main_arg8)) :=
  (keep_main_arg8 (W2 m ρ c)).trans (Layer1.arg8 m ρ c)
theorem arg9 (c : Dev nD) : V3 m ρ c main_arg9 = (m ((c : Thread nD τ).loc main_arg9)) :=
  (keep_main_arg9 (W2 m ρ c)).trans (Layer1.arg9 m ρ c)
theorem arg10 (c : Dev nD) : V3 m ρ c main_arg10 = (m ((c : Thread nD τ).loc main_arg10)) :=
  (keep_main_arg10 (W2 m ρ c)).trans (Layer1.arg10 m ρ c)
theorem arg11 (c : Dev nD) : V3 m ρ c main_arg11 = (m ((c : Thread nD τ).loc main_arg11)) :=
  (keep_main_arg11 (W2 m ρ c)).trans (Layer1.arg11 m ρ c)
theorem arg12 (c : Dev nD) : V3 m ρ c main_arg12 = (m ((c : Thread nD τ).loc main_arg12)) :=
  (keep_main_arg12 (W2 m ρ c)).trans (Layer1.arg12 m ρ c)

end Cert.Sage.Entry1

end
-- ==== Proof.Launch1.lean ====
/-
  Layer 2's kernel launch, read as one array: ten grid points, point t writing rows 5000·t … 5000·t + 4999 of the
  result from the same rows of the two row-indexed operands and the whole of the weights and the bias. Each block a
  point writes back is therefore a block of ONE function of the operand arrays — the layer's map of `Spec.lean` —
  and the ten blocks tile the 50000 rows, so the result array after the launch is that function.
-/
import proofs.«140639_j39127152066637_1_alg».proof.Proof.Gen.KernelIdeal.Frame
import proofs.«140639_j39127152066637_1_alg».proof.Proof.Payload
import Idealize.ShloMosaic.Lib.Pipeline.Value

set_option maxRecDepth 16384

noncomputable section

namespace Cert.Sage.Launch1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zero_off : (![0, 0] : Fin 2 → Nat) = fun _ => 0 := funext fun a => by fin_cases a <;> rfl

/-- The printed block-index maps over the ten points: the row-indexed windows move with the point, the weights and
    the bias stay at block (0, 0), and the output's block row is the point's number. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The left weight window's one block is the whole matrix. -/
theorem wl_block (c : Dev nD) (t : Fin cfg1.N) : iblk1 V c 2 t = V c main_v41 := by
  obtain ⟨-, -, -, -, e0, e1, -⟩ := index_facts t
  funext y
  show V c main_v41 (((cfg1.win 2).blk t).view.emb y) = V c main_v41 y
  refine congrArg (V c main_v41) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The right weight window's one block is the whole matrix. -/
theorem wr_block (c : Dev nD) (t : Fin cfg1.N) : iblk1 V c 3 t = V c main_v43 := by
  obtain ⟨-, -, -, -, -, -, e0, e1, -⟩ := index_facts t
  funext y
  show V c main_v43 (((cfg1.win 3).blk t).view.emb y) = V c main_v43 y
  refine congrArg (V c main_v43) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias window's one block is the whole row. -/
theorem b_block (c : Dev nD) (t : Fin cfg1.N) : iblk1 V c 4 t = V c main_v44 := by
  obtain ⟨-, -, -, -, -, -, -, -, e0, e1, -⟩ := index_facts t
  funext y
  show V c main_v44 (((cfg1.win 4).blk t).view.emb y) = V c main_v44 y
  refine congrArg (V c main_v44) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Row `r` of the aggregate's block at point `t` is row 5000·t + r of the aggregate, which is the row the output's
    block puts its own row `r` at. -/
theorem agg_row (c : Dev nD) (t : Fin cfg1.N) (y : S5000x128.Idx) (k : Fin 128) :
    iblk1 V c 0 t (ix2 (y 0) k) = V c main_v39 (ix2 ((((cfg1.win 5).blk t).view.emb y) 0) k) := by
  obtain ⟨e0, e1, -, -, -, -, -, -, -, -, e10, e11⟩ := index_facts t
  show V c main_v39 (((cfg1.win 0).blk t).view.emb (ix2 (y 0) k)) = V c main_v39 (ix2 ((((cfg1.win 5).blk t).view.emb y) 0) k)
  refine congrArg (V c main_v39) (funext fun a => Fin.ext ?_)
  match a with
  | ⟨0, _⟩ => show win1_0.index t (0 : Fin 2) * 5000 + 1 * (y 0).val = win1_5.index t (0 : Fin 2) * 5000 + 1 * (y 0).val; omega
  | ⟨1, _⟩ => show win1_0.index t (1 : Fin 2) * 128 + 1 * k.val = k.val; omega

/-- The same for the features' block. -/
theorem feat_row (c : Dev nD) (t : Fin cfg1.N) (y : S5000x128.Idx) (k : Fin 128) :
    iblk1 V c 1 t (ix2 (y 0) k) = V c main_v27 (ix2 ((((cfg1.win 5).blk t).view.emb y) 0) k) := by
  obtain ⟨-, -, e0, e1, -, -, -, -, -, -, e10, e11⟩ := index_facts t
  show V c main_v27 (((cfg1.win 1).blk t).view.emb (ix2 (y 0) k)) = V c main_v27 (ix2 ((((cfg1.win 5).blk t).view.emb y) 0) k)
  refine congrArg (V c main_v27) (funext fun a => Fin.ext ?_)
  match a with
  | ⟨0, _⟩ => show win1_1.index t (0 : Fin 2) * 5000 + 1 * (y 0).val = win1_5.index t (0 : Fin 2) * 5000 + 1 * (y 0).val; omega
  | ⟨1, _⟩ => show win1_1.index t (1 : Fin 2) * 128 + 1 * k.val = k.val; omega

/-- The output block's column is the index's own column. -/
theorem out_col (t : Fin cfg1.N) (y : S5000x128.Idx) : ((((cfg1.win 5).blk t).view.emb y) 1).val = (y 1).val := by
  obtain ⟨-, -, -, -, -, -, -, -, -, -, e10, e11⟩ := index_facts t
  show win1_5.index t (1 : Fin 2) * 128 + 1 * (y 1).val = (y 1).val
  omega

/-- What point `t` writes back is block `t` of the layer's map of the operand arrays as the launch finds them. -/
theorem flushed_eq (c : Dev nD) (t : Fin cfg1.N) :
    (dat1 V c).flushed 5 t = ((cfg1.win 5).blk t).view.read (Elt Ideal)
      (act (lin (V c main_v39) (V c main_v27) (V c main_v41) (V c main_v43) (V c main_v44))) := by
  show (cfg1.win 5).cut (grid1.coords t) ((dat1 V c).after 5 t) = _
  rw [after1_5]
  unfold out1_5
  rw [View.canon_unit_zero zero_off]
  simp only [View.ld_unit_zero (S := S5000x128) zero_off, View.ld_unit_zero (S := S128x128) zero_off,
    View.ld_unit_zero (S := S1x128) zero_off]
  rw [Pay.pay1, wl_block V c t, wr_block V c t, b_block V c t]
  funext y
  exact act_lin_at (V c main_v39) (V c main_v27) (iblk1 V c 0 t) (iblk1 V c 1 t) (V c main_v41) (V c main_v43) (V c main_v44) y
    (((cfg1.win 5).blk t).view.emb y) (agg_row V c t y) (feat_row V c t y) (out_col t y)

/-- An index of the result array is in point `t`'s block iff each coordinate is in the block's range on its axis. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every row lies in the block of the point numbered row / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨-, -, -, -, -, -, -, -, -, -, e10, e11⟩ := index_facts t
  have ht : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the launch is the layer's map of the operand arrays as the launch finds them. -/
theorem final (c : Dev nD) :
    (dat1 V c).arrAt 5 cfg1.N = (act (lin (V c main_v39) (V c main_v27) (V c main_v41) (V c main_v43) (V c main_v44))) :=
  (dat1 V c).arrAt_eq_of_cover 5 _ (fun t _ => flushed_eq V c t) cover

end Cert.Sage.Launch1

end
-- ==== Proof.Layer2.lean ====
/-
  Layer 2: the array launch 2 leaves is the layer's map of what the launch found, and what it found is known
  from the stretch before it; so the layer's output is the network's layer 2 of the arguments. The launch touches
  no buffer but its six arrays: the edge arrays and the later layers' parameters are what they were before it.
-/
import proofs.«140639_j39127152066637_1_alg».proof.Proof.Entry1
import proofs.«140639_j39127152066637_1_alg».proof.Proof.Launch1

set_option maxRecDepth 16384

noncomputable section

namespace Cert.Sage.Layer2

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

/-- The layer's output array after the launch. -/
theorem out (c : Dev nD) : W4 m ρ c (Proc.devRef .tc main_v45) = (layerAct (m ((c : Thread nD τ).loc main_arg1)) (layerAct (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
  refine (W4_arr m ρ c 5).trans ((Launch1.final (V3 m ρ) c).trans ?_)
  rw [Entry1.agg m ρ c, Entry1.feat m ρ c, Entry1.wl m ρ c, Entry1.wr m ρ c, Entry1.bias m ρ c]
  rfl

theorem src (c : Dev nD) : W4 m ρ c (Proc.devRef .tc main_v1) = srcOf (m ((c : Thread nD τ).loc main_arg1)) :=
  (W4_of_ne m ρ c main_v1 (by decide)).trans (Entry1.src m ρ c)
theorem dst (c : Dev nD) : W4 m ρ c (Proc.devRef .tc main_v3) = dstOf (m ((c : Thread nD τ).loc main_arg1)) :=
  (W4_of_ne m ρ c main_v3 (by decide)).trans (Entry1.dst m ρ c)
theorem deg (c : Dev nD) : W4 m ρ c (Proc.devRef .tc main_v9) = degOf (dstOf (m ((c : Thread nD τ).loc main_arg1))) :=
  (W4_of_ne m ρ c main_v9 (by decide)).trans (Entry1.deg m ρ c)
theorem arg8 (c : Dev nD) : W4 m ρ c (Proc.devRef .tc main_arg8) = (m ((c : Thread nD τ).loc main_arg8)) :=
  (W4_of_ne m ρ c main_arg8 (by decide)).trans (Entry1.arg8 m ρ c)
theorem arg9 (c : Dev nD) : W4 m ρ c (Proc.devRef .tc main_arg9) = (m ((c : Thread nD τ).loc main_arg9)) :=
  (W4_of_ne m ρ c main_arg9 (by decide)).trans (Entry1.arg9 m ρ c)
theorem arg10 (c : Dev nD) : W4 m ρ c (Proc.devRef .tc main_arg10) = (m ((c : Thread nD τ).loc main_arg10)) :=
  (W4_of_ne m ρ c main_arg10 (by decide)).trans (Entry1.arg10 m ρ c)
theorem arg11 (c : Dev nD) : W4 m ρ c (Proc.devRef .tc main_arg11) = (m ((c : Thread nD τ).loc main_arg11)) :=
  (W4_of_ne m ρ c main_arg11 (by decide)).trans (Entry1.arg11 m ρ c)
theorem arg12 (c : Dev nD) : W4 m ρ c (Proc.devRef .tc main_arg12) = (m ((c : Thread nD τ).loc main_arg12)) :=
  (W4_of_ne m ρ c main_arg12 (by decide)).trans (Entry1.arg12 m ρ c)

end Cert.Sage.Layer2

end
-- ==== Proof.Entry2.lean ====
/-
  The contents when launch 2 is entered: the aggregate of the previous layer's output (from the edge arrays and
  the degrees computed once, before the first launch), that output itself, this layer's transposed weights and
  bias row. The stretch writes none of the edge arrays and none of the remaining parameters. What the stretch does
  is first read off over ANY contents `W` it may start from, then applied to the contents the previous launch left.
-/
import proofs.«140639_j39127152066637_1_alg».proof.Proof.Layer2

set_option maxRecDepth 16384

noncomputable section

namespace Cert.Sage.Entry2

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

section Stretch
variable (W : Valuation τ sig (Elt Ideal))

set_option maxHeartbeats 1000000 in
theorem read_agg : StableHlo.after hostOps2 W (Proc.devRef .tc main_v57) = aggrOf (W (Proc.devRef .tc main_v1)) (W (Proc.devRef .tc main_v3)) (W (Proc.devRef .tc main_v9)) (W (Proc.devRef .tc main_v45)) := by
  dsimp only [hostOps2]; after_results_simp; rfl

theorem read_wl : StableHlo.after hostOps2 W (Proc.devRef .tc main_v59) = wT (W (Proc.devRef .tc main_arg8)) := by
  dsimp only [hostOps2]; after_results_simp; rfl

theorem read_wr : StableHlo.after hostOps2 W (Proc.devRef .tc main_v61) = wT (W (Proc.devRef .tc main_arg9)) := by
  dsimp only [hostOps2]; after_results_simp; rfl

theorem read_bias : StableHlo.after hostOps2 W (Proc.devRef .tc main_v62) = brow (W (Proc.devRef .tc main_arg10)) := by
  dsimp only [hostOps2]; after_results_simp; rfl

theorem keep_main_v45 : StableHlo.after hostOps2 W (Proc.devRef .tc main_v45) = W (Proc.devRef .tc main_v45) := by stretch_keeps
theorem keep_main_v1 : StableHlo.after hostOps2 W (Proc.devRef .tc main_v1) = W (Proc.devRef .tc main_v1) := by stretch_keeps
theorem keep_main_v3 : StableHlo.after hostOps2 W (Proc.devRef .tc main_v3) = W (Proc.devRef .tc main_v3) := by stretch_keeps
theorem keep_main_v9 : StableHlo.after hostOps2 W (Proc.devRef .tc main_v9) = W (Proc.devRef .tc main_v9) := by stretch_keeps
theorem keep_main_arg11 : StableHlo.after hostOps2 W (Proc.devRef .tc main_arg11) = W (Proc.devRef .tc main_arg11) := by stretch_keeps
theorem keep_main_arg12 : StableHlo.after hostOps2 W (Proc.devRef .tc main_arg12) = W (Proc.devRef .tc main_arg12) := by stretch_keeps

end Stretch

theorem agg (c : Dev nD) : V5 m ρ c main_v57 = aggr (m ((c : Thread nD τ).loc main_arg1)) (layerAct (m ((c : Thread nD τ).loc main_arg1)) (layerAct (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
  refine (read_agg (W4 m ρ c)).trans ?_
  rw [Layer2.src m ρ c, Layer2.dst m ρ c, Layer2.deg m ρ c, Layer2.out m ρ c]
  rfl

theorem feat (c : Dev nD) : V5 m ρ c main_v45 = (layerAct (m ((c : Thread nD τ).loc main_arg1)) (layerAct (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (keep_main_v45 (W4 m ρ c)).trans (Layer2.out m ρ c)

theorem wl (c : Dev nD) : V5 m ρ c main_v59 = wT (m ((c : Thread nD τ).loc main_arg8)) := by
  refine (read_wl (W4 m ρ c)).trans ?_
  rw [Layer2.arg8 m ρ c]

theorem wr (c : Dev nD) : V5 m ρ c main_v61 = wT (m ((c : Thread nD τ).loc main_arg9)) := by
  refine (read_wr (W4 m ρ c)).trans ?_
  rw [Layer2.arg9 m ρ c]

theorem bias (c : Dev nD) : V5 m ρ c main_v62 = brow (m ((c : Thread nD τ).loc main_arg10)) := by
  refine (read_bias (W4 m ρ c)).trans ?_
  rw [Layer2.arg10 m ρ c]

theorem src (c : Dev nD) : V5 m ρ c main_v1 = srcOf (m ((c : Thread nD τ).loc main_arg1)) :=
  (keep_main_v1 (W4 m ρ c)).trans (Layer2.src m ρ c)
theorem dst (c : Dev nD) : V5 m ρ c main_v3 = dstOf (m ((c : Thread nD τ).loc main_arg1)) :=
  (keep_main_v3 (W4 m ρ c)).trans (Layer2.dst m ρ c)
theorem deg (c : Dev nD) : V5 m ρ c main_v9 = degOf (dstOf (m ((c : Thread nD τ).loc main_arg1))) :=
  (keep_main_v9 (W4 m ρ c)).trans (Layer2.deg m ρ c)
theorem arg11 (c : Dev nD) : V5 m ρ c main_arg11 = (m ((c : Thread nD τ).loc main_arg11)) :=
  (keep_main_arg11 (W4 m ρ c)).trans (Layer2.arg11 m ρ c)
theorem arg12 (c : Dev nD) : V5 m ρ c main_arg12 = (m ((c : Thread nD τ).loc main_arg12)) :=
  (keep_main_arg12 (W4 m ρ c)).trans (Layer2.arg12 m ρ c)

end Cert.Sage.Entry2

end
-- ==== Proof.Launch2.lean ====
/-
  Layer 3's kernel launch, read as one array: ten grid points, point t writing rows 5000·t … 5000·t + 4999 of the
  result from the same rows of the two row-indexed operands and the whole of the weights and the bias. Each block a
  point writes back is therefore a block of ONE function of the operand arrays — the layer's map of `Spec.lean` —
  and the ten blocks tile the 50000 rows, so the result array after the launch is that function.
-/
import proofs.«140639_j39127152066637_1_alg».proof.Proof.Gen.KernelIdeal.Frame
import proofs.«140639_j39127152066637_1_alg».proof.Proof.Payload
import Idealize.ShloMosaic.Lib.Pipeline.Value

set_option maxRecDepth 16384

noncomputable section

namespace Cert.Sage.Launch2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zero_off : (![0, 0] : Fin 2 → Nat) = fun _ => 0 := funext fun a => by fin_cases a <;> rfl

/-- The printed block-index maps over the ten points: the row-indexed windows move with the point, the weights and
    the bias stay at block (0, 0), and the output's block row is the point's number. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The left weight window's one block is the whole matrix. -/
theorem wl_block (c : Dev nD) (t : Fin cfg2.N) : iblk2 V c 2 t = V c main_v59 := by
  obtain ⟨-, -, -, -, e0, e1, -⟩ := index_facts t
  funext y
  show V c main_v59 (((cfg2.win 2).blk t).view.emb y) = V c main_v59 y
  refine congrArg (V c main_v59) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The right weight window's one block is the whole matrix. -/
theorem wr_block (c : Dev nD) (t : Fin cfg2.N) : iblk2 V c 3 t = V c main_v61 := by
  obtain ⟨-, -, -, -, -, -, e0, e1, -⟩ := index_facts t
  funext y
  show V c main_v61 (((cfg2.win 3).blk t).view.emb y) = V c main_v61 y
  refine congrArg (V c main_v61) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias window's one block is the whole row. -/
theorem b_block (c : Dev nD) (t : Fin cfg2.N) : iblk2 V c 4 t = V c main_v62 := by
  obtain ⟨-, -, -, -, -, -, -, -, e0, e1, -⟩ := index_facts t
  funext y
  show V c main_v62 (((cfg2.win 4).blk t).view.emb y) = V c main_v62 y
  refine congrArg (V c main_v62) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Row `r` of the aggregate's block at point `t` is row 5000·t + r of the aggregate, which is the row the output's
    block puts its own row `r` at. -/
theorem agg_row (c : Dev nD) (t : Fin cfg2.N) (y : S5000x128.Idx) (k : Fin 128) :
    iblk2 V c 0 t (ix2 (y 0) k) = V c main_v57 (ix2 ((((cfg2.win 5).blk t).view.emb y) 0) k) := by
  obtain ⟨e0, e1, -, -, -, -, -, -, -, -, e10, e11⟩ := index_facts t
  show V c main_v57 (((cfg2.win 0).blk t).view.emb (ix2 (y 0) k)) = V c main_v57 (ix2 ((((cfg2.win 5).blk t).view.emb y) 0) k)
  refine congrArg (V c main_v57) (funext fun a => Fin.ext ?_)
  match a with
  | ⟨0, _⟩ => show win2_0.index t (0 : Fin 2) * 5000 + 1 * (y 0).val = win2_5.index t (0 : Fin 2) * 5000 + 1 * (y 0).val; omega
  | ⟨1, _⟩ => show win2_0.index t (1 : Fin 2) * 128 + 1 * k.val = k.val; omega

/-- The same for the features' block. -/
theorem feat_row (c : Dev nD) (t : Fin cfg2.N) (y : S5000x128.Idx) (k : Fin 128) :
    iblk2 V c 1 t (ix2 (y 0) k) = V c main_v45 (ix2 ((((cfg2.win 5).blk t).view.emb y) 0) k) := by
  obtain ⟨-, -, e0, e1, -, -, -, -, -, -, e10, e11⟩ := index_facts t
  show V c main_v45 (((cfg2.win 1).blk t).view.emb (ix2 (y 0) k)) = V c main_v45 (ix2 ((((cfg2.win 5).blk t).view.emb y) 0) k)
  refine congrArg (V c main_v45) (funext fun a => Fin.ext ?_)
  match a with
  | ⟨0, _⟩ => show win2_1.index t (0 : Fin 2) * 5000 + 1 * (y 0).val = win2_5.index t (0 : Fin 2) * 5000 + 1 * (y 0).val; omega
  | ⟨1, _⟩ => show win2_1.index t (1 : Fin 2) * 128 + 1 * k.val = k.val; omega

/-- The output block's column is the index's own column. -/
theorem out_col (t : Fin cfg2.N) (y : S5000x128.Idx) : ((((cfg2.win 5).blk t).view.emb y) 1).val = (y 1).val := by
  obtain ⟨-, -, -, -, -, -, -, -, -, -, e10, e11⟩ := index_facts t
  show win2_5.index t (1 : Fin 2) * 128 + 1 * (y 1).val = (y 1).val
  omega

/-- What point `t` writes back is block `t` of the layer's map of the operand arrays as the launch finds them. -/
theorem flushed_eq (c : Dev nD) (t : Fin cfg2.N) :
    (dat2 V c).flushed 5 t = ((cfg2.win 5).blk t).view.read (Elt Ideal)
      (lin (V c main_v57) (V c main_v45) (V c main_v59) (V c main_v61) (V c main_v62)) := by
  show (cfg2.win 5).cut (grid2.coords t) ((dat2 V c).after 5 t) = _
  rw [after2_5]
  unfold out2_5
  rw [View.canon_unit_zero zero_off]
  simp only [View.ld_unit_zero (S := S5000x128) zero_off, View.ld_unit_zero (S := S128x128) zero_off,
    View.ld_unit_zero (S := S1x128) zero_off]
  rw [Pay.pay2, wl_block V c t, wr_block V c t, b_block V c t]
  funext y
  exact lin_at (V c main_v57) (V c main_v45) (iblk2 V c 0 t) (iblk2 V c 1 t) (V c main_v59) (V c main_v61) (V c main_v62) y
    (((cfg2.win 5).blk t).view.emb y) (agg_row V c t y) (feat_row V c t y) (out_col t y)

/-- An index of the result array is in point `t`'s block iff each coordinate is in the block's range on its axis. -/
theorem mem_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v63).slice (win2_5.rect t)).set ↔ _
  rw [View.set_slice_whole, Rect.mem_set_unit]
  exact Iff.rfl

/-- Every row lies in the block of the point numbered row / 5000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨-, -, -, -, -, -, -, -, -, -, e10, e11⟩ := index_facts t
  have ht : t.val = (i 0).val / 5000 := rfl
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The result array after the launch is the layer's map of the operand arrays as the launch finds them. -/
theorem final (c : Dev nD) :
    (dat2 V c).arrAt 5 cfg2.N = (lin (V c main_v57) (V c main_v45) (V c main_v59) (V c main_v61) (V c main_v62)) :=
  (dat2 V c).arrAt_eq_of_cover 5 _ (fun t _ => flushed_eq V c t) cover

end Cert.Sage.Launch2

end
-- ==== Proof.Layer3.lean ====
/-
  Layer 3: the array launch 3 leaves is the layer's map of what the launch found, and what it found is known
  from the stretch before it; so the layer's output is the network's layer 3 of the arguments. The launch touches
  no buffer but its six arrays: the edge arrays and the later layers' parameters are what they were before it.
-/
import proofs.«140639_j39127152066637_1_alg».proof.Proof.Entry2
import proofs.«140639_j39127152066637_1_alg».proof.Proof.Launch2

set_option maxRecDepth 16384

noncomputable section

namespace Cert.Sage.Layer3

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

/-- The layer's output array after the launch. -/
theorem out (c : Dev nD) : W6 m ρ c (Proc.devRef .tc main_v63) = (layerLin (m ((c : Thread nD τ).loc main_arg1)) (layerAct (m ((c : Thread nD τ).loc main_arg1)) (layerAct (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10))) := by
  refine (W6_arr m ρ c 5).trans ((Launch2.final (V5 m ρ) c).trans ?_)
  rw [Entry2.agg m ρ c, Entry2.feat m ρ c, Entry2.wl m ρ c, Entry2.wr m ρ c, Entry2.bias m ρ c]
  rfl

theorem src (c : Dev nD) : W6 m ρ c (Proc.devRef .tc main_v1) = srcOf (m ((c : Thread nD τ).loc main_arg1)) :=
  (W6_of_ne m ρ c main_v1 (by decide)).trans (Entry2.src m ρ c)
theorem dst (c : Dev nD) : W6 m ρ c (Proc.devRef .tc main_v3) = dstOf (m ((c : Thread nD τ).loc main_arg1)) :=
  (W6_of_ne m ρ c main_v3 (by decide)).trans (Entry2.dst m ρ c)
theorem deg (c : Dev nD) : W6 m ρ c (Proc.devRef .tc main_v9) = degOf (dstOf (m ((c : Thread nD τ).loc main_arg1))) :=
  (W6_of_ne m ρ c main_v9 (by decide)).trans (Entry2.deg m ρ c)
theorem arg11 (c : Dev nD) : W6 m ρ c (Proc.devRef .tc main_arg11) = (m ((c : Thread nD τ).loc main_arg11)) :=
  (W6_of_ne m ρ c main_arg11 (by decide)).trans (Entry2.arg11 m ρ c)
theorem arg12 (c : Dev nD) : W6 m ρ c (Proc.devRef .tc main_arg12) = (m ((c : Thread nD τ).loc main_arg12)) :=
  (W6_of_ne m ρ c main_arg12 (by decide)).trans (Entry2.arg12 m ρ c)

end Cert.Sage.Layer3

end
-- ==== Proof.Exit.lean ====
/-
  The last stretch: it leaves the third layer's output where it is — the embedding the program returns — and
  computes the readout from it and the last two arguments.
-/
import proofs.«140639_j39127152066637_1_alg».proof.Proof.Layer3

set_option maxRecDepth 16384

noncomputable section

namespace Cert.Sage.Exit

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

section Stretch
variable (W : Valuation τ sig (Elt Ideal))

theorem keep_emb : StableHlo.after hostOps3 W (Proc.devRef .tc main_v63) = W (Proc.devRef .tc main_v63) := by stretch_keeps

theorem read_out : StableHlo.after hostOps3 W (Proc.devRef .tc main_v68) = readout (W (Proc.devRef .tc main_v63)) (W (Proc.devRef .tc main_arg11)) (W (Proc.devRef .tc main_arg12)) := by
  dsimp only [hostOps3]; after_results_simp; rfl

end Stretch

/-- The embedding at the last boundary. -/
theorem emb (c : Dev nD) : W7 m ρ c (Proc.devRef .tc main_v63) = (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (keep_emb (W6 m ρ c)).trans ((Layer3.out m ρ c).trans rfl)

/-- The readout at the last boundary. -/
theorem out (c : Dev nD) : W7 m ρ c (Proc.devRef .tc main_v68) = readout (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) := by
  refine (read_out (W6 m ρ c)).trans ?_
  rw [Layer3.out m ρ c, Layer3.arg11 m ρ c, Layer3.arg12 m ρ c]
  rfl

end Cert.Sage.Exit

end
-- ==== Proof.KValue.lean ====
/-
  The idealized kernel's run, its results named: the readout array ends at the readout of the network's embedding
  of the arguments, the embedding array at that embedding, and the arguments are unchanged.
-/
import proofs.«140639_j39127152066637_1_alg».proof.Proof.KRun
import proofs.«140639_j39127152066637_1_alg».proof.Proof.Exit

set_option maxRecDepth 16384

noncomputable section

namespace Cert.Sage.KValue

open Idealize.ShloMosaic Idealize.ShloMosaic.TcCoe Idealize.ShloMosaic.ValueIdx Idealize.ShloMosaic.StableHlo Idealize.SL.Sem
open Cert.KernelIdeal Cert.KernelIdeal.Gen Cert.Sage

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v68) = readout (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12))
      ∧ r.2.mem ((c.tc : Thread nD τ).loc main_v63) = (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (Exit.out m ρ c), (h c).2.1.trans (Exit.emb m ρ c), (h c).2.2⟩)
    (KRun.run_last m ρ)

end Cert.Sage.KValue

end
-- ==== Proof.RefValue.lean ====
/-
  The reference computes the same network. Its layer is two host matrix products against the transposed weight
  matrices plus the broadcast bias — at (r, c) the very sums Σₖ A(r,k)·Wᵀ(k,c) of the layer's map —, its rectifier
  the maximum with a broadcast zero, and its aggregation the same gather, scatter-add and division as the kernel's
  program applies, degrees recomputed at every layer from the same destinations. So each of its three layer outputs,
  and then its readout, is the network's function of the arguments.
-/
import proofs.«140639_j39127152066637_1_alg».proof.Proof.Gen.ReferenceIdeal.Read
import proofs.«140639_j39127152066637_1_alg».proof.Proof.Chain
import proofs.«140639_j39127152066637_1_alg».proof.Proof.LibDotSum

set_option maxRecDepth 16384

noncomputable section

namespace Cert.Sage.Ref

open Idealize.ShloMosaic Idealize.ShloMosaic.TcCoe Idealize.ShloMosaic.ValueIdx Idealize.SL.Sem
open Cert.ReferenceIdeal Cert.ReferenceIdeal.Gen Cert.ReferenceIdeal.Read

/-- The reference's [50000,128] × [128,128] product record. -/
abbrev DR := dot_S50000x128_S128x128_S50000x128_1_0_0_1_n_n

/-- The host product at (r, c): the sum over k of A(r,k)·M(k,c). -/
theorem hostDot (A : FVec Ideal S50000x128 .f32) (M : FVec Ideal S128x128 .f32) (r : Fin 50000) (c : Fin 128) :
    Host.dotGeneral DR none A M (ix2 r c) = ∑ k : Fin 128, A (ix2 r k) * M (ix2 k c) := by
  simp only [Host.dotGeneral]
  refine (Ideal.dotGeneral_apply DR none _ A M (ix2 r c)).trans ?_
  refine Cert.Gnn.dot_sum DR 128 rfl rfl A M (ix2 r c) (fun k => ix2 r k) (fun k => ix2 k c) (fun k => ?_) (fun k => ?_)
  · have hk := contrEquiv1_symm_val DR 128 rfl rfl k
    exact funext fun a => Fin.ext (by
      match a with
      | ⟨0, _⟩ => exact lhs_main_v23_0 _ _
      | ⟨1, _⟩ => exact (lhs_main_v23_1 _ _).trans hk)
  · have hk := contrEquiv1_symm_val DR 128 rfl rfl k
    exact funext fun a => Fin.ext (by
      match a with
      | ⟨0, _⟩ => exact (rhs_main_v23_0 _ _).trans hk
      | ⟨1, _⟩ => exact rhs_main_v23_1 _ _)

/-- The bias broadcast to every row reads, at (r, c), the bias at c. -/
theorem bias_apply (b : FVec Ideal S128 .f32) (r : Fin 50000) (c : Fin 128) :
    broadcastInDim S50000x128 ![0, 1] bcast_S1x128_S50000x128_0_1 (broadcastInDim S1x128 ![1] bcast_S128_S1x128_1 b) (ix2 r c) = b (ix1 c) := by
  refine (broadcastInDim_apply _ bcast_S1x128_S50000x128_0_1 _ (ix2 r c) (ix2 (0 : Fin 1) c) (fun a => ?_)).trans ?_
  · match a with
    | ⟨0, _⟩ => rfl
    | ⟨1, _⟩ => rfl
  · exact broadcastInDim_apply _ bcast_S128_S1x128_1 b (ix2 (0 : Fin 1) c) (ix1 c) (fun a => by
      match a with
      | ⟨0, _⟩ => rfl)

/-- The reference's affine layer IS the layer's map, with the weights transposed and the bias as a row. -/
theorem affine_eq (A h : FVec Ideal S50000x128 .f32) (Wl Wr : FVec Ideal S128x128 .f32) (b : FVec Ideal S128 .f32) :
    addf (F := Ideal) (addf (Host.dotGeneral DR none A (transpose S128x128 [1, 0] Wl transposes_S128x128_S128x128_1_0))
        (Host.dotGeneral DR none h (transpose S128x128 [1, 0] Wr transposes_S128x128_S128x128_1_0)))
      (broadcastInDim S50000x128 ![0, 1] bcast_S1x128_S50000x128_0_1 (broadcastInDim S1x128 ![1] bcast_S128_S1x128_1 b))
    = (lin A h (wT Wl) (wT Wr) (brow b) : FVec Ideal S50000x128 .f32) := by
  funext i
  obtain ⟨r, c, rfl⟩ : ∃ (r : Fin 50000) (c : Fin 128), i = ix2 r c := ⟨i 0, i 1, eq_ix2 i⟩
  rw [addf_apply, addf_apply, hostDot, hostDot, bias_apply, lin_apply]
  have hb : brow b (ix2 (0 : Fin 1) c) = b (ix1 c) := shapeCast_a_1a_apply b _ (0 : Fin 1) c
  rw [hb]
  rfl

/-- The reference's rectifier is the maximum with the zero word's value. -/
theorem relu_eq (X : FVec Ideal S50000x128 .f32) : maximumf X (val_main_call0_v0 (F := Ideal)) = (act X : FVec Ideal S50000x128 .f32) := rfl
theorem relu_eq' (X : FVec Ideal S50000x128 .f32) : maximumf X (val_main_call1_v0 (F := Ideal)) = (act X : FVec Ideal S50000x128 .f32) := rfl

/-- The reference's first aggregation is the network's. -/
theorem agg1 (x0 : FVec Ideal S50000x128 .f32) (x1 : IVec S2x800000 32) : val_main_v21 (F := Ideal) x0 x1 = aggr x1 x0 := rfl

/-- The reference's first layer is the network's. -/
theorem layer1 (x0 : FVec Ideal S50000x128 .f32) (x1 : IVec S2x800000 32) (x2 : FVec Ideal S128x128 .f32) (x3 : FVec Ideal S128x128 .f32) (x4 : FVec Ideal S128 .f32) : val_main_v30 (F := Ideal) x0 x1 x2 x3 x4 = layerAct x1 x0 x2 x3 x4 := by
  unfold val_main_v30 val_main_v29 val_main_v26 val_main_v23 val_main_v25 val_main_v28 val_main_v27 val_main_v22 val_main_v24
  rw [agg1, affine_eq, relu_eq]
  rfl

/-- The second aggregation is the network's, of the first layer's output. -/
theorem agg2 (x0 : FVec Ideal S50000x128 .f32) (x1 : IVec S2x800000 32) (x2 : FVec Ideal S128x128 .f32) (x3 : FVec Ideal S128x128 .f32) (x4 : FVec Ideal S128 .f32) : val_main_v48 (F := Ideal) x0 x1 x2 x3 x4 = aggr x1 (val_main_v30 (F := Ideal) x0 x1 x2 x3 x4) := rfl

/-- The reference's second layer is the network's. -/
theorem layer2 (x0 : FVec Ideal S50000x128 .f32) (x1 : IVec S2x800000 32) (x2 : FVec Ideal S128x128 .f32) (x3 : FVec Ideal S128x128 .f32) (x4 : FVec Ideal S128 .f32) (x5 : FVec Ideal S128x128 .f32) (x6 : FVec Ideal S128x128 .f32) (x7 : FVec Ideal S128 .f32) :
    val_main_v57 (F := Ideal) x0 x1 x2 x3 x4 x5 x6 x7 = layerAct x1 (layerAct x1 x0 x2 x3 x4) x5 x6 x7 := by
  unfold val_main_v57 val_main_v56 val_main_v53 val_main_v50 val_main_v52 val_main_v55 val_main_v54 val_main_v49 val_main_v51
  rw [agg2, affine_eq, relu_eq', layer1]
  rfl

/-- The third aggregation is the network's, of the second layer's output. -/
theorem agg3 (x0 : FVec Ideal S50000x128 .f32) (x1 : IVec S2x800000 32) (x2 : FVec Ideal S128x128 .f32) (x3 : FVec Ideal S128x128 .f32) (x4 : FVec Ideal S128 .f32) (x5 : FVec Ideal S128x128 .f32) (x6 : FVec Ideal S128x128 .f32) (x7 : FVec Ideal S128 .f32) : val_main_v75 (F := Ideal) x0 x1 x2 x3 x4 x5 x6 x7 = aggr x1 (val_main_v57 (F := Ideal) x0 x1 x2 x3 x4 x5 x6 x7) := rfl

/-- The reference's third layer, its second result, is the network's embedding. -/
theorem layer3 (x0 : FVec Ideal S50000x128 .f32) (x1 : IVec S2x800000 32) (x2 : FVec Ideal S128x128 .f32) (x3 : FVec Ideal S128x128 .f32) (x4 : FVec Ideal S128 .f32) (x5 : FVec Ideal S128x128 .f32) (x6 : FVec Ideal S128x128 .f32) (x7 : FVec Ideal S128 .f32) (x8 : FVec Ideal S128x128 .f32) (x9 : FVec Ideal S128x128 .f32) (x10 : FVec Ideal S128 .f32) :
    val_main_v83 (F := Ideal) x0 x1 x2 x3 x4 x5 x6 x7 x8 x9 x10 = embed x0 x1 x2 x3 x4 x5 x6 x7 x8 x9 x10 := by
  unfold val_main_v83 val_main_v80 val_main_v77 val_main_v79 val_main_v82 val_main_v81 val_main_v76 val_main_v78
  rw [agg3, affine_eq, layer2]
  rfl

/-- The reference's first result is the readout of the embedding. -/
theorem out (x0 : FVec Ideal S50000x128 .f32) (x1 : IVec S2x800000 32) (x2 : FVec Ideal S128x128 .f32) (x3 : FVec Ideal S128x128 .f32) (x4 : FVec Ideal S128 .f32) (x5 : FVec Ideal S128x128 .f32) (x6 : FVec Ideal S128x128 .f32) (x7 : FVec Ideal S128 .f32) (x8 : FVec Ideal S128x128 .f32) (x9 : FVec Ideal S128x128 .f32) (x10 : FVec Ideal S128 .f32) (x11 : FVec Ideal S2x128 .f32) (x12 : FVec Ideal S2 .f32) :
    val_main_v88 (F := Ideal) x0 x1 x2 x3 x4 x5 x6 x7 x8 x9 x10 x11 x12 = readout (embed x0 x1 x2 x3 x4 x5 x6 x7 x8 x9 x10) x11 x12 := by
  unfold val_main_v88 val_main_v85 val_main_v87 val_main_v86 val_main_v84
  rw [layer3]
  rfl

end Cert.Sage.Ref

end
-- ==== Proof.lean ====
/-
  Three-layer mean-aggregation graph network on 50000 nodes and 800000 edges, kernel against reference.

  Each layer sends node features h to  mean_{j → i} h_j · Wlᵀ + h_i · Wrᵀ + b  (the first two layers followed by the
  maximum with zero), and a final affine readout maps the 128 features to 2. The kernel's program computes the
  in-degrees once, and runs each layer's two matrix products, bias and rectifier in a launch over ten blocks of 5000
  rows, with the weights transposed (and rounded to bf16, which changes nothing on extended reals) beforehand; the
  reference recomputes the degrees at every layer and uses host matrix products. Both apply the same gather,
  scatter-add and division for the mean. Over the extended reals both results are therefore the same function of
  the arguments (`Cert.Sage.embed` and its `Cert.Sage.readout`): on the kernel's side a launch's ten written blocks
  tile one array that is the layer's map of the launch's operands; on the reference's side each host product is the
  same sum over the 128 contracted positions. No law beyond the definitions is needed — the two sides group every
  sum and product alike — so finiteness of the inputs is never used.
-/
import proofs.«140639_j39127152066637_1_alg».proof.Defs
import proofs.«140639_j39127152066637_1_alg».proof.Proof.Gen.Kernel
import proofs.«140639_j39127152066637_1_alg».proof.Proof.Gen.Kernel.Skeleton
import proofs.«140639_j39127152066637_1_alg».proof.Proof.Gen.Kernel.Launch
import proofs.«140639_j39127152066637_1_alg».proof.Proof.Gen.Kernel.Points
import proofs.«140639_j39127152066637_1_alg».proof.Proof.Gen.Kernel.Frame
import proofs.«140639_j39127152066637_1_alg».proof.Proof.Gen.KernelIdeal
import proofs.«140639_j39127152066637_1_alg».proof.Proof.Gen.KernelIdeal.Skeleton
import proofs.«140639_j39127152066637_1_alg».proof.Proof.Gen.KernelIdeal.Launch
import proofs.«140639_j39127152066637_1_alg».proof.Proof.Gen.KernelIdeal.Points
import proofs.«140639_j39127152066637_1_alg».proof.Proof.Gen.KernelIdeal.Frame
import proofs.«140639_j39127152066637_1_alg».proof.Proof.Gen.ReferenceIdeal
import proofs.«140639_j39127152066637_1_alg».proof.Proof.Gen.ReferenceIdeal.Run
import proofs.«140639_j39127152066637_1_alg».proof.Proof.Gen.ReferenceIdeal.Read
import proofs.«140639_j39127152066637_1_alg».proof.Proof.Gen.Pre_finite_inputs
import proofs.«140639_j39127152066637_1_alg».proof.Proof.KValue
import proofs.«140639_j39127152066637_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the readout of the network's embedding and that embedding, of arguments that agree. -/
theorem algebraic : Cert.algebraic_KernelIdeal_ReferenceIdeal := by
  intro m ρ m' ρ' _ hagree
  refine ⟨_, _, Cert.Sage.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    rw [Cert.ReferenceIdeal.Read.val_main_v88_eq, Cert.Sage.Ref.out, e0, e1, e2, e3, e4, e5, e6, e7, e8, e9, e10, e11, e12]
  · obtain ⟨e0, e1, e2, e3, e4, e5, e6, e7, e8, e9, e10, -, -⟩ := hagree c
    rw [Cert.ReferenceIdeal.Read.val_main_v83_eq, Cert.Sage.Ref.layer3, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
